-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S50000x128 : Shape := ⟨2, ![50000, 128]⟩
abbrev S128x128 : Shape := ⟨2, ![128, 128]⟩
abbrev S128 : Shape := ⟨1, ![128]⟩
abbrev S_ : Shape := ⟨0, ![]⟩

class Facts : Prop where
  bcast_S_S800000 : S_.BroadcastsInDim S800000 (![] : Fin 0 → Fin S800000.rank)
  reducesTo_S800000_S_d0 : S800000.ReducesTo [0] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : IVec S800000 32) (main_arg1 : IVec S800000 32) (main_arg2 : FVec F S800000 .f32) (main_arg3 : FVec F S50000x128 .f32) (main_arg4 : FVec F S128x128 .f32) (main_arg5 : FVec F S128 .f32) : IVec S_ 1 :=
  let main_v0 : FVec F S800000 .f32 := Host.absf main_arg2
  let main_cst : FVec F S_ .f32 := constant S_ .f32 0x7F800000#32
  let main_v1 : FVec F S800000 .f32 := broadcastInDim S800000 ![] bcast_S_S800000 main_cst
  let main_v2 : IVec S800000 1 := cmpf .olt main_v0 main_v1
  let main_c : IVec S_ 1 := constantI S_ 1 1#1
  let main_v3 : IVec S_ 1 := (fun x v => Host.reduce IntOp.andi x v reducesTo_S800000_S_d0 h_S_) main_v2 main_c
  let main_v4 : FVec F S50000x128 .f32 := Host.absf main_arg3
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S800000 : Shape := ⟨1, ![800000]⟩
abbrev S50000x128 : Shape := ⟨2, ![50000, 128]⟩
abbrev S128x128 : Shape := ⟨2, ![128, 128]⟩
abbrev S128 : Shape := ⟨1, ![128]⟩
abbrev S800000x1 : Shape := ⟨2, ![800000, 1]⟩
abbrev S_ : Shape := ⟨0, ![]⟩
abbrev S800000x128 : Shape := ⟨2, ![800000, 128]⟩
abbrev S5000x128 : Shape := ⟨2, ![5000, 128]⟩
abbrev S1x128 : Shape := ⟨2, ![1, 128]⟩

abbrev nBuf : Space → Nat
  | .hbm => 23
  | .vmem => 6
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S800000, .f32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S800000 : Shape := ⟨1, ![800000]⟩
abbrev S50000x128 : Shape := ⟨2, ![50000, 128]⟩
abbrev S128x128 : Shape := ⟨2, ![128, 128]⟩
abbrev S128 : Shape := ⟨1, ![128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S800000, .f32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S_, .f32⟩
  | .hbm, ⟨27, _⟩ => ⟨S50000x128, .f32⟩
  | .hbm, ⟨28, _⟩ => ⟨S50000x128, .f32⟩
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LayerSpec.lean ====
/-
  The dense layer the two programs compute after their common sparse aggregation, as ONE function of
  its three operands, index by index on the extended reals:

      layer x w b (r, c) = max (Σ_k x(r, k) · w(k, c) + b(c)) 0

  for a feature matrix `x` of any number of rows and 128 columns, a 128 × 128 weight matrix `w` and a
  128-entry bias `b`.  Entry (r, c) reads row r of `x` only: that is what lets a block of rows be computed
  from the block alone (`layer_congr`).  No law of the extended reals is needed beyond that: both
  programs form the same sum, then the same maximum.
-/
import Idealize.ShloMosaic.PureOps.Ideal
import Idealize.ShloMosaic.Lib.ValueIdx

noncomputable section

open scoped BigOperators

namespace Cert.DenseLayer

open Idealize.ShloMosaic Idealize.ShloMosaic.ValueIdx

/-- relu (x · w + b), entry by entry: row `r` of `x` against column `c` of `w`, plus `b c`, cut below at the
    value the zero word denotes. -/
def layer {R : Nat} (x : (⟨2, ![R, 128]⟩ : Shape).Idx → EReal) (w : (⟨2, ![128, 128]⟩ : Shape).Idx → EReal)
    (b : (⟨1, ![128]⟩ : Shape).Idx → EReal) : (⟨2, ![R, 128]⟩ : Shape).Idx → EReal :=
  fun i => max ((∑ k : Fin 128, x (ix2 (i 0) k) * w (ix2 k (i 1))) + b (ix1 (i 1))) (Ideal.ofBits .f32 0x00000000#32)

/-- The layer at coordinates (r, c). -/
theorem layer_apply {R : Nat} (x : (⟨2, ![R, 128]⟩ : Shape).Idx → EReal) (w : (⟨2, ![128, 128]⟩ : Shape).Idx → EReal)
    (b : (⟨1, ![128]⟩ : Shape).Idx → EReal) (r : Fin R) (c : Fin 128) :
    layer x w b (ix2 r c)
      = max ((∑ k : Fin 128, x (ix2 r k) * w (ix2 k c)) + b (ix1 c)) (Ideal.ofBits .f32 0x00000000#32) := rfl

/-- Entry (r, c) reads row r of `x`, column c of `w` and entry c of `b`, nothing else: operands that agree
    there — feature matrices of any two heights, each on a row of its own — give the same entry. -/
theorem layer_congr {R R' : Nat} (x : (⟨2, ![R, 128]⟩ : Shape).Idx → EReal) (x' : (⟨2, ![R', 128]⟩ : Shape).Idx → EReal)
    (w w' : (⟨2, ![128, 128]⟩ : Shape).Idx → EReal) (b b' : (⟨1, ![128]⟩ : Shape).Idx → EReal) (r : Fin R) (r' : Fin R')
    (c : Fin 128) (hx : ∀ k : Fin 128, x (ix2 r k) = x' (ix2 r' k)) (hw : ∀ k : Fin 128, w (ix2 k c) = w' (ix2 k c))
    (hb : b (ix1 c) = b' (ix1 c)) :
    layer x w b (ix2 r c) = layer x' w' b' (ix2 r' c) := by
  rw [layer_apply, layer_apply, hb]
  exact congrArg (fun s => max (s + b' (ix1 c)) (Ideal.ofBits .f32 0x00000000#32))
    (Finset.sum_congr rfl fun k _ => by rw [hx k, hw k])

/-- The same for two indices not written by coordinates: the entries agree as soon as the row of `x` at the
    first index is the row of `x'` at the second, and the column of the weights and the bias entry are those of
    the other index. -/
theorem layer_congr_idx {R R' : Nat} (x : (⟨2, ![R, 128]⟩ : Shape).Idx → EReal) (x' : (⟨2, ![R', 128]⟩ : Shape).Idx → EReal)
    (w w' : (⟨2, ![128, 128]⟩ : Shape).Idx → EReal) (b b' : (⟨1, ![128]⟩ : Shape).Idx → EReal)
    (i : (⟨2, ![R, 128]⟩ : Shape).Idx) (i' : (⟨2, ![R', 128]⟩ : Shape).Idx)
    (hx : ∀ k : Fin 128, x (ix2 (i 0) k) = x' (ix2 (i' 0) k)) (hw : ∀ k : Fin 128, w (ix2 k (i 1)) = w' (ix2 k (i' 1)))
    (hb : b (ix1 (i 1)) = b' (ix1 (i' 1))) :
    layer x w b i = layer x' w' b' i' := by
  show max ((∑ k : Fin 128, x (ix2 (i 0) k) * w (ix2 k (i 1))) + b (ix1 (i 1))) _
    = max ((∑ k : Fin 128, x' (ix2 (i' 0) k) * w' (ix2 k (i' 1))) + b' (ix1 (i' 1))) _
  rw [hb]
  exact congrArg (fun s => max (s + b' (ix1 (i' 1))) (Ideal.ofBits .f32 0x00000000#32))
    (Finset.sum_congr rfl fun k _ => by rw [hx k, hw k])

end Cert.DenseLayer

end
-- ==== Proof.KernelBlock.lean ====
/-
  The kernel body's arithmetic on one block, read at an index.  On a block of 5000 feature rows `x`, the
  weight matrix `w` and the bias `b` the body rounds `x` and `w` to bf16 (the identity on extended reals),
  multiplies them into a zero accumulator (so entry (p, q) is Σ_k x(p, k) · w(k, q)), adds the bias laid
  out as one row and repeated down the rows, and takes the maximum with the zero splat: the dense layer
  `Cert.DenseLayer.layer` of the block.
-/
import proofs.«164579_j63058709840593_1_alg».proof.Proof.Gen.KernelIdeal.Skeleton
import proofs.«164579_j63058709840593_1_alg».proof.Proof.LayerSpec
import Idealize.ShloMosaic.Lib.ValueLayout
import Idealize.ShloMosaic.PureOps.Ideal.Laws

noncomputable section

open scoped BigOperators

namespace Cert.KernelIdeal.BlockValue

open Cert.KernelIdeal Cert.KernelIdeal.Gen
open Idealize.ShloMosaic Idealize.ShloMosaic.ValueIdx

/-- The matrix product's dimension numbers: rows × contraction against contraction × columns. -/
abbrev mm : DotDims S5000x128 S128x128 S5000x128 := dot_S5000x128_S128x128_S5000x128_1_0_0_1_n_n

/-- The left operand is read at the output's row … -/
theorem lhs_row (i : S5000x128.Idx) (q : mm.contr.Idx) : (mm.lhsIdx i q 0).val = (i 0).val := by
  unfold DotDims.lhsIdx
  rw [dif_neg (show ¬(0 : Fin S5000x128.rank) ∈ mm.lhsBatch by decide),
    dif_pos (show (0 : Fin S5000x128.rank) ∈ mm.lhsNonContracting by decide)]
  rfl
/-- … and at the contraction coordinate; -/
theorem lhs_col (i : S5000x128.Idx) (q : mm.contr.Idx) : (mm.lhsIdx i q 1).val = (q ⟨0, by decide⟩).val :=
  mm.lhsIdx_val_of_single rfl i q
/-- the right operand at the contraction coordinate … -/
theorem rhs_row (i : S5000x128.Idx) (q : mm.contr.Idx) : (mm.rhsIdx i q 0).val = (q ⟨0, by decide⟩).val :=
  mm.rhsIdx_val_of_single rfl i q
/-- … and at the output's column. -/
theorem rhs_col (i : S5000x128.Idx) (q : mm.contr.Idx) : (mm.rhsIdx i q 1).val = (i 1).val := by
  unfold DotDims.rhsIdx
  rw [dif_neg (show ¬(1 : Fin S128x128.rank) ∈ mm.rhsBatch by decide),
    dif_pos (show (1 : Fin S128x128.rank) ∈ mm.rhsNonContracting by decide)]
  rfl

/-- The product into the zero accumulator, at (p, q): the sum over the 128 contraction coordinates. -/
theorem matmul_entry (x : FVec Ideal S5000x128 .bf16) (w : FVec Ideal S128x128 .bf16) (p : Fin 5000) (q : Fin 128) :
    matmul mm none x w (constant S5000x128 .f32 0x00000000#32) (ix2 p q) = ∑ k : Fin 128, x (ix2 p k) * w (ix2 k q) := by
  refine (Ideal.matmul_constant_zero_apply mm none x w (ix2 p q)).trans ?_
  rw [← Equiv.sum_comp (contrEquiv1 mm 128 rfl rfl).symm]
  refine Finset.sum_congr rfl fun k _ => ?_
  have hk := contrEquiv1_symm_val mm 128 rfl rfl k
  have el : mm.lhsIdx (ix2 p q) ((contrEquiv1 mm 128 rfl rfl).symm k) = ix2 p k := funext fun a => Fin.ext (by
    match a with
    | ⟨0, _⟩ => exact lhs_row _ _
    | ⟨1, _⟩ => exact (lhs_col _ _).trans hk)
  have er : mm.rhsIdx (ix2 p q) ((contrEquiv1 mm 128 rfl rfl).symm k) = ix2 k q := funext fun a => Fin.ext (by
    match a with
    | ⟨0, _⟩ => exact (rhs_row _ _).trans hk
    | ⟨1, _⟩ => exact rhs_col _ _)
  rw [el, er]

/-- The bias cast to one row and repeated down the 5000 rows, at (p, q): its entry q. -/
theorem bias_entry (b : Vec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans
    (shapeCast_a_1a_apply b shapeCasts_S128_S1x128 (0 : Fin 1) q)

/-- THE BODY'S STORED VALUE is the dense layer of its three loaded blocks. -/
theorem payload_eq_layer (x : Vec Ideal S5000x128 .f32) (w : Vec Ideal S128x128 .f32) (b : Vec Ideal S128 .f32) :
    k0_pay1 (F := Ideal) x w b = Cert.DenseLayer.layer x w b := by
  funext j
  obtain ⟨p, q, rfl⟩ : ∃ (p : Fin 5000) (q : Fin 128), j = ix2 p q := ⟨j 0, j 1, eq_ix2 j⟩
  rw [Cert.DenseLayer.layer_apply]
  refine congrArg₂ max (congrArg₂ (· + ·) ?_ (bias_entry b p q)) rfl
  refine (matmul_entry (truncf .bf16 (shapeCast S5000x128 x shapeCasts_S5000x128_S5000x128) bitsLt_bf16_f32)
    (truncf .bf16 w bitsLt_bf16_f32) p q).trans ?_
  refine Finset.sum_congr rfl fun k _ => ?_
  show shapeCast S5000x128 x shapeCasts_S5000x128_S5000x128 (ix2 p k) * w (ix2 k q) = x (ix2 p k) * w (ix2 k q)
  rw [shapeCast_self]

end Cert.KernelIdeal.BlockValue

end
-- ==== Proof.KernelArray.lean ====
/-
  From blocks to the array.  The kernel's grid has ten points; point t stages rows 5000·t … 5000·t + 4999 of
  the aggregated features, the whole weight matrix and the whole bias, and writes back rows
  5000·t … 5000·t + 4999 of the result.  What it writes is the dense layer of its blocks
  (`BlockValue.payload_eq_layer`), and entry (r, c) of the layer reads row r of the features only
  (`DenseLayer.layer_congr`), so point t writes block t of the dense layer of the WHOLE aggregated feature
  array.  The ten blocks tile the 50000 rows — row r lies in block r / 5000 — hence after the run the result
  array is that layer, everywhere.
-/
import proofs.«164579_j63058709840593_1_alg».proof.Proof.Gen.KernelIdeal.Value
import proofs.«164579_j63058709840593_1_alg».proof.Proof.KernelBlock

noncomputable section

open scoped BigOperators

namespace Cert.KernelIdeal.ArrayValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

-- the layer is used through its congruence lemma only: its sum is never opened here
attribute [local irreducible] Cert.DenseLayer.layer

variable (m : (ℓ : Loc nD τ sig) → Buf (Elt Ideal) ℓ) (ρ : Dev nD → PrngReg)

theorem off2 : (![0, 0] : Fin 2 → Nat) = fun _ => 0 := funext fun a => by fin_cases a <;> rfl
theorem off1 : (![0] : Fin 1 → Nat) = fun _ => 0 := funext fun a => by fin_cases a <;> rfl

/-- The result array the run ends with: the dense layer of the aggregated features, the weights and the bias, as
    the region finds the three arrays. -/
abbrev result (c : Dev nD) : S50000x128.Idx → EReal :=
  Cert.DenseLayer.layer (R := 50000) (V m c main_v12) (V m c main_arg4) (V m c main_arg5)

/-- The block index maps over the ten grid points: the feature window moves down the rows with the result
    window, one block per point; the weight and bias windows stay on their one block; no window moves along the
    columns. -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) ≤ 9 :=
  (by decide +kernel : ∀ t : Fin grid0.N, _)

/-- Every one of the ten row blocks is some point's. -/
theorem index_onto : ∀ q : Fin 10, ∃ t : Fin cfg0.N, win0_3.index t = ![q.val, 0] :=
  (by decide +kernel : ∀ q : Fin 10, ∃ t : Fin grid0.N, win0_3.index t = ![q.val, 0])

/-! ## The windows' blocks, read off ANY contents of their arrays

Stated for arbitrary contents `A`, `W`, `B` of the three staged arrays, so that nothing here depends on what the
host operations before the region computed. -/

/-- Through the feature window's block at point `t`, entry `x` of the block is entry `k` of the array whenever
    `k` is `x` moved down by 5000 rows per block. -/
theorem read_features (t : Fin cfg0.N) (A : S50000x128.Idx → EReal) (x : S5000x128.Idx) (k : S50000x128.Idx)
    (hk0 : (k 0).val = win0_3.index t (0 : Fin 2) * 5000 + (x 0).val) (hk1 : (k 1).val = (x 1).val) :
    (((cfg0.win 0).blk t).view.read (Elt Ideal) A : Vec Ideal S5000x128 .f32) x = A k := by
  obtain ⟨e0, e1, e2, e3, e4, e5, e6⟩ := index_facts t
  rw [View.read_apply]
  show A _ = A _
  refine congrArg A (funext fun a => Fin.ext ?_)
  match a with
  | ⟨0, _⟩ => show win0_0.index t (0 : Fin 2) * 5000 + 1 * (x 0).val = (k 0).val; rw [hk0]; omega
  | ⟨1, _⟩ => show win0_0.index t (1 : Fin 2) * 128 + 1 * (x 1).val = (k 1).val; rw [hk1]; omega

/-- The weight window's one block is its whole array. -/
theorem read_weights (t : Fin cfg0.N) (W : S128x128.Idx → EReal) :
    (((cfg0.win 1).blk t).view.read (Elt Ideal) W : Vec Ideal S128x128 .f32) = W := by
  obtain ⟨e0, e1, e2, e3, e4, e5, e6⟩ := index_facts t
  funext x
  rw [View.read_apply]
  show W _ = W _
  refine congrArg W (funext fun a => Fin.ext ?_)
  match a with
  | ⟨0, _⟩ => show win0_1.index t (0 : Fin 2) * 128 + 1 * (x 0).val = (x 0).val; omega
  | ⟨1, _⟩ => show win0_1.index t (1 : Fin 2) * 128 + 1 * (x 1).val = (x 1).val; omega

/-- The bias window's one block is its whole array. -/
theorem read_bias (t : Fin cfg0.N) (B : S128.Idx → EReal) :
    (((cfg0.win 2).blk t).view.read (Elt Ideal) B : Vec Ideal S128 .f32) = B := by
  obtain ⟨e0, e1, e2, e3, e4, e5, e6⟩ := index_facts t
  funext x
  rw [View.read_apply]
  show B _ = B _
  refine congrArg B (funext fun a => Fin.ext ?_)
  match a with
  | ⟨0, _⟩ => show win0_2.index t (0 : Fin 1) * 128 + 1 * (x 0).val = (x 0).val; omega

/-- THE LAYER OF THE BLOCKS IS THE BLOCK OF THE LAYER: the dense layer of the three windows' blocks at point `t` is
    the result window's block at `t` of the dense layer of the whole arrays. -/
theorem layer_of_blocks (t : Fin cfg0.N) (A : S50000x128.Idx → EReal) (W : S128x128.Idx → EReal) (B : S128.Idx → EReal) :
    (cfg0.win 3).cut (grid0.coords t)
        (Cert.DenseLayer.layer (R := 5000) (((cfg0.win 0).blk t).view.read (Elt Ideal) A)
          (((cfg0.win 1).blk t).view.read (Elt Ideal) W) (((cfg0.win 2).blk t).view.read (Elt Ideal) B))
      = ((cfg0.win 3).blk t).view.read (Elt Ideal) (Cert.DenseLayer.layer (R := 50000) A W B) := by
  obtain ⟨e0, e1, e2, e3, e4, e5, e6⟩ := index_facts t
  rw [read_weights t W, read_bias t B]
  funext y
  rw [View.read_apply]
  show Cert.DenseLayer.layer _ _ _ _ = Cert.DenseLayer.layer (R := 50000) A W B _
  have hy0 : (y 0).val < 5000 := (y 0).isLt
  have hy1 : (y 1).val < 128 := (y 1).isLt
  refine Cert.DenseLayer.layer_congr_idx _ _ _ _ _ _ _ _ (fun k => ?_) (fun k => ?_) ?_
  · refine read_features t A _ _ ?_ rfl
    show win0_3.index t (0 : Fin 2) * 5000 + 1 * (y 0).val = win0_3.index t (0 : Fin 2) * 5000 + (y 0).val
    omega
  · refine congrArg W (funext fun a => Fin.ext ?_)
    match a with
    | ⟨0, _⟩ => rfl
    | ⟨1, _⟩ => show (y 1).val = win0_3.index t (1 : Fin 2) * 128 + 1 * (y 1).val; omega
  · refine congrArg B (funext fun a => Fin.ext ?_)
    match a with
    | ⟨0, _⟩ => show (y 1).val = win0_3.index t (1 : Fin 2) * 128 + 1 * (y 1).val; omega

/-! ## The run's result array -/

/-- WHAT POINT `t` WRITES BACK is block `t` of the dense layer of the whole arrays: the body stores the layer of
    its three blocks, and the blocks are the arrays read through the windows. -/
theorem flushed_eq (c : Dev nD) (t : Fin cfg0.N) :
    (dats m 0 c).flushed 3 t = ((cfg0.win 3).blk t).view.read (Elt Ideal) (result m c) := by
  rw [flushed3]
  unfold out0_3
  rw [View.canon_unit_zero off2]
  simp only [View.ld_unit_zero (S := S5000x128) off2, View.ld_unit_zero (S := S128x128) off2,
    View.ld_unit_zero (S := S128) off1]
  rw [BlockValue.payload_eq_layer]
  exact layer_of_blocks t (V m c main_v12) (V m c main_arg4) (V m c main_arg5)

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v13).slice (win0_3.rect t)).set ↔ _
  rw [View.set_slice_whole, Rect.mem_set_unit]
  exact Iff.rfl

/-- Every index of the result array lies in some point's block: row r in block r / 5000. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := index_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE ARRAY after the run is the dense layer of the aggregated features, the weights and the bias. -/
theorem final (c : Dev nD) : (dats m 0 c).arrAt 3 cfg0.N = result m c :=
  (dats m 0 c).arrAt_eq_of_cover 3 (result m c) (fun t _ => flushed_eq m c t) cover

end Cert.KernelIdeal.ArrayValue

end
-- ==== Proof.KernelOperands.lean ====
/-
  What the kernel's region finds in the array its feature window stages.  Before the region the program runs
  sixteen host operations: the edge weights laid out as a column and repeated along the features, the source
  node of every edge wrapped into range and used to gather a feature row per edge, the product of the two, and
  a scatter-add of the products into a zero array by destination node.  The region therefore finds, in the
  staged array, that composed value of the four graph arguments (`aggregate`).  It is never opened: the
  reference computes the same value with the same operations.
-/
import proofs.«164579_j63058709840593_1_alg».proof.Proof.Gen.KernelIdeal.Frame
import Idealize.ShloMosaic.Lib.StableHlo.Run
import Idealize.ShloMosaic.PureOps.Ideal

noncomputable section

namespace Cert.KernelIdeal.Operands

open Cert.KernelIdeal Cert.KernelIdeal.Gen
open Idealize.ShloMosaic Idealize.ShloMosaic.TcCoe Idealize.SL.Sem Idealize.ShloMosaic.StableHlo

/-- The sparse aggregation: for destination rows `dst`, source rows `src`, edge weights `wt` and node
    features `feat`, the scatter-add by `dst` of `wt` times the gathered rows `feat[src]`. -/
def aggregate (dst src : (⟨S800000, .i32⟩ : BufTy).Contents (Elt Ideal)) (wt : (⟨S800000, .f32⟩ : BufTy).Contents (Elt Ideal))
    (feat : (⟨S50000x128, .f32⟩ : BufTy).Contents (Elt Ideal)) : (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (mulf (broadcastInDim S800000x128 ![0, 1] bcast_S800000x1_S800000x128_0_1 (broadcastInDim S800000x1 ![0] bcast_S800000_S800000x1_0 wt))
      (Host.gather gather_S50000x128_S800000x1_S800000x128_1_0_n_n_0_1_1128 feat
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))

variable (m : (ℓ : Loc nD τ sig) → Buf (Elt Ideal) ℓ)

/-- The feature window's array, as the region finds it, is the aggregation of the four graph arguments as
    launched. -/
theorem V_main_v12 (c : Dev nD) :
    (V m c main_v12 : S50000x128.Idx → EReal)
      = aggregate (m ((c : Thread nD τ).loc main_arg0)) (m ((c : Thread nD τ).loc main_arg1))
          (m ((c : Thread nD τ).loc main_arg2)) (m ((c : Thread nD τ).loc main_arg3)) := by
  dsimp only [V, hostOps0]
  after_results
  rfl

end Cert.KernelIdeal.Operands

end
-- ==== Proof.KernelRun.lean ====
/-
  The kernel program's run, read: every weakly fair execution ends with the result array at the dense layer of
  the aggregated graph features, the weights and the bias — all three as functions of the six arguments as
  launched — and with the arguments unchanged.  It is the generated frame run with the result array named
  (`Value.run_blocks`), the array assembled from the ten written blocks (`ArrayValue.final`), and the three staged
  arrays read back to the arguments (`Operands.V_main_v12` for the features the host operations computed; the
  weights and the bias are arguments no operation writes).
-/
import proofs.«164579_j63058709840593_1_alg».proof.Proof.KernelArray
import proofs.«164579_j63058709840593_1_alg».proof.Proof.KernelOperands

noncomputable section

namespace Cert.KernelIdeal.RunValue

open Cert.KernelIdeal Cert.KernelIdeal.Gen Cert.KernelIdeal.Value
open Idealize.ShloMosaic Idealize.ShloMosaic.TcCoe Idealize.SL.Sem

variable (m : (ℓ : Loc nD τ sig) → Buf (Elt Ideal) ℓ) (ρ : Dev nD → PrngReg)

/-- The kernel program's result as a function of the arguments as launched. -/
abbrev output (c : Dev nD) : S50000x128.Idx → EReal :=
  Cert.DenseLayer.layer (R := 50000)
    (Operands.aggregate (m ((c : Thread nD τ).loc main_arg0)) (m ((c : Thread nD τ).loc main_arg1))
      (m ((c : Thread nD τ).loc main_arg2)) (m ((c : Thread nD τ).loc main_arg3)))
    (m ((c : Thread nD τ).loc main_arg4)) (m ((c : Thread nD τ).loc main_arg5))

/-- The arrays the region finds, read back to the arguments. -/
theorem result_eq_output (c : Dev nD) : ArrayValue.result m c = output m c := by
  unfold ArrayValue.result output
  rw [Operands.V_main_v12 m c, V_main_arg4 m c, V_main_arg5 m c]

/-- THE RUN: the result array ends at `output`, the six arguments as launched. -/
theorem run : θ_run defs (onTc (τ := τ) (main (F := Ideal))) ⟨m, fun _ => 0, ρ⟩ fun r => ∀ c : Dev nD,
      r.2.mem ((c : Thread nD τ).loc main_v13) = output m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono
    (fun r h c => ⟨(h c).1.trans ((ArrayValue.final m c).trans (result_eq_output m c)), (h c).2⟩)
    (run_blocks m ρ)

end Cert.KernelIdeal.RunValue

end
-- ==== Proof.RefLayer.lean ====
/-
  The reference, read at an index.  Its last five operations — a `dot_general` contracting the feature
  axis, the bias broadcast along the rows, an addition and a maximum with the zero splat — are the dense
  layer `Cert.DenseLayer.layer` applied to whatever the scatter-add before them produced, to the weight
  matrix and to the bias.  The aggregation itself (gather, scale, scatter-add) is carried as one unopened
  value: the kernel's program applies the very same operations to the same arguments.
-/
import proofs.«164579_j63058709840593_1_alg».proof.Proof.Gen.ReferenceIdeal.Read
import proofs.«164579_j63058709840593_1_alg».proof.Proof.LayerSpec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The contraction's left operand index at output (r, c) and contraction coordinate k is (r, k). -/
theorem lidx_eq (r : Fin 50000) (c k : Fin 128) : lidx_main_v13 (ix2 r c) k = ix2 r k :=
  funext fun a => by match a with | ⟨0, _⟩ => rfl | ⟨1, _⟩ => rfl

/-- Its right operand index is (k, c). -/
theorem ridx_eq (r : Fin 50000) (c k : Fin 128) : ridx_main_v13 (ix2 r c) k = ix2 k c :=
  funext fun a => by match a with | ⟨0, _⟩ => rfl | ⟨1, _⟩ => rfl

/-- The bias, broadcast to one row and then along the rows, is read at (r, c) at its entry c. -/
theorem bidx_eq (r : Fin 50000) (c : Fin 128) : idx_main_v14 (idx_main_v15 (ix2 r c)) = ix1 c :=
  funext fun a => by match a with | ⟨0, _⟩ => rfl

/-- THE REFERENCE'S RESULT is the dense layer of the aggregated features, the weights and the bias. -/
theorem result_eq_layer (x0 x1 : (⟨S800000, .i32⟩ : BufTy).Contents (Elt Ideal)) (x2 : (⟨S800000, .f32⟩ : BufTy).Contents (Elt Ideal))
    (x3 : (⟨S50000x128, .f32⟩ : BufTy).Contents (Elt Ideal)) (x4 : (⟨S128x128, .f32⟩ : BufTy).Contents (Elt Ideal))
    (x5 : (⟨S128, .f32⟩ : BufTy).Contents (Elt Ideal)) :
    val_main_v17 (F := Ideal) x0 x1 x2 x3 x4 x5
      = Cert.DenseLayer.layer (val_main_v12 (F := Ideal) x0 x1 x2 x3) x4 x5 := by
  funext i
  obtain ⟨r, c, rfl⟩ : ∃ (r : Fin 50000) (c : Fin 128), i = ix2 r c := ⟨i 0, i 1, eq_ix2 i⟩
  rw [val_main_v17_apply, val_main_v16_apply, val_main_v13_apply, val_main_v15_apply, val_main_v14_apply,
    val_main_call0_v0_apply, val_main_call0_cst_apply, Cert.DenseLayer.layer_apply]
  generalize val_main_v12 (F := Ideal) x0 x1 x2 x3 = y
  simp only [lidx_eq, ridx_eq, bidx_eq, Ideal.maximumf_def, Ideal.addf_def, Ideal.ofBits_def]

end Cert.ReferenceIdeal.RefValue

end
-- ==== Proof.lean ====
/-
  The certificate of a graph-convolution layer: `relu (A · X · W + b)` with the sparse product `A · X` written as
  a gather of feature rows by source node, a scaling by edge weight and a scatter-add by destination node.

  Both programs compute the sparse aggregation with the SAME sixteen host operations, so it is carried as one
  unopened value `N` (`Operands.aggregate` in the kernel's program, the stage `Read.val_main_v12` in the
  reference: one term).  The reference then forms `max (N · W + b) 0` with one whole `dot_general`; the kernel
  forms it block by block, ten blocks of 5000 rows, rounding the operands of each block's matrix product to
  bf16 first — the identity on extended reals.  Entry (r, c) of either is
  `max (Σ_k N(r, k) · W(k, c) + b(c)) 0` (`DenseLayer.layer`), and a row of the result reads that row of `N`
  only, so the ten blocks are the ten row blocks of the one whole layer.  No law of the extended reals beyond
  reading both sums over the same 128 coordinates is used, and finiteness of the inputs is not needed.

  The three frames are the generated ones (the reference's is its generated run with the result dropped);
  the idealization rewrote nothing, so `preserves` is trivial.
-/
import proofs.«164579_j63058709840593_1_alg».proof.Defs
import proofs.«164579_j63058709840593_1_alg».proof.Proof.Gen.Kernel
import proofs.«164579_j63058709840593_1_alg».proof.Proof.Gen.Kernel.Skeleton
import proofs.«164579_j63058709840593_1_alg».proof.Proof.Gen.Kernel.Launch
import proofs.«164579_j63058709840593_1_alg».proof.Proof.Gen.Kernel.Points
import proofs.«164579_j63058709840593_1_alg».proof.Proof.Gen.Kernel.Frame
import proofs.«164579_j63058709840593_1_alg».proof.Proof.Gen.KernelIdeal
import proofs.«164579_j63058709840593_1_alg».proof.Proof.Gen.KernelIdeal.Skeleton
import proofs.«164579_j63058709840593_1_alg».proof.Proof.Gen.KernelIdeal.Launch
import proofs.«164579_j63058709840593_1_alg».proof.Proof.Gen.KernelIdeal.Points
import proofs.«164579_j63058709840593_1_alg».proof.Proof.Gen.KernelIdeal.Frame
import proofs.«164579_j63058709840593_1_alg».proof.Proof.Gen.ReferenceIdeal
import proofs.«164579_j63058709840593_1_alg».proof.Proof.Gen.KernelIdeal.Value
import proofs.«164579_j63058709840593_1_alg».proof.Proof.Gen.ReferenceIdeal.Run
import proofs.«164579_j63058709840593_1_alg».proof.Proof.Gen.ReferenceIdeal.Read
import proofs.«164579_j63058709840593_1_alg».proof.Proof.Gen.Pre_finite_inputs
import proofs.«164579_j63058709840593_1_alg».proof.Proof.KernelRun
import proofs.«164579_j63058709840593_1_alg».proof.Proof.RefLayer
import Idealize.ShloMosaic.Adequacy
import Idealize.ShloMosaic.Init

noncomputable section

namespace Cert.Proof

open Idealize.ShloMosaic Idealize.SL.Sem

/-- The two programs' sparse aggregations are one function of the four graph arguments: the same operations
    with the same dimension numbers, term for term. -/
theorem aggregate_eq (dst src : (⟨Cert.KernelIdeal.S800000, .i32⟩ : BufTy).Contents (Elt Ideal))
    (wt : (⟨Cert.KernelIdeal.S800000, .f32⟩ : BufTy).Contents (Elt Ideal))
    (feat : (⟨Cert.KernelIdeal.S50000x128, .f32⟩ : BufTy).Contents (Elt Ideal)) :
    Cert.ReferenceIdeal.Read.val_main_v12 (F := Ideal) dst src wt feat
      = Cert.KernelIdeal.Operands.aggregate dst src wt feat := rfl

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- At `Ideal` the kernel's result array ends at the dense layer of the aggregated features (its run, read),
    and the reference's at the same layer of the same aggregation (its generated run, read at an index), of
    arguments that agree. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v17_eq _ _ _ _ _ _).trans ?_
  refine (Cert.ReferenceIdeal.RefValue.result_eq_layer _ _ _ _ _ _).trans ?_
  obtain ⟨h0, h1, h2, h3, h4, h5⟩ := hagree c
  rw [h0, h1, h2, h3, h4, h5, aggregate_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
